-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) (main_arg1 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  main_v8
-- ==== Kernel.lean ====
abbrev S65536x1024 : Shape := ⟨2, ![65536, 1024]⟩
abbrev S65536 : Shape := ⟨1, ![65536]⟩
abbrev S2048x1024 : Shape := ⟨2, ![2048, 1024]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048, .f32⟩
  | .local _ .vmem, ⟨5, _⟩ => ⟨S2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  inb_S2048_S2048_0 : ∀ a, (![0] : Fin 1 → Nat) a + S2048.size a ≤ S2048.size a
  h_S2048 : 0 < S2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S65536.size a
  hwx0_2 : ∀ i : grid0.Coords, EltTy.bits .f32 = 32 ∨ (Rect.block (s := S65536) S2048.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S65536 : Shape := ⟨1, ![65536]⟩
abbrev S65536x1 : Shape := ⟨2, ![65536, 1]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)

variable [Facts₀]

class Facts : Prop extends Facts₀ where

variable [Facts]
-- ==== Proof.CosineLaw.lean ====
/-
  The cosine of the angle between two rows, with each norm floored at a positive ε, in the two arrangements the two
  programs use, on the extended reals.

  For rows p, h of n entries write ‖p‖_ε = max (√(Σ_k p_k²)) ε. One arrangement divides once,
      (Σ_k p_k · h_k) / (‖p‖_ε · ‖h‖_ε),
  the other normalises each row first and then sums,
      Σ_k (p_k / ‖p‖_ε) · (h_k / ‖h‖_ε).
  When every entry is a real number and ε is a positive real, both floored norms are positive reals a and b, division
  by them is multiplication by 1/a and 1/b, and the two arrangements agree because a constant factor leaves a finite
  sum of reals: Σ_k (p_k/a)(h_k/b) = (Σ_k p_k h_k)/(ab). At an infinite entry the step fails (0 · ∞ conventions), which is
  why the statement asks for real entries.
-/
import Idealize.ShloMosaic.PureOps.Ideal
import Idealize.ShloMosaic.PureOps.Ideal.Laws
import Idealize.ShloMosaic.Lib.ValueIdx

noncomputable section

namespace Cert.Cosine

open Idealize.ShloMosaic Idealize.ShloMosaic.ValueIdx

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The norm of a row floored at ε: max (√(Σ_k v_k²)) ε. -/
def flooredNorm (ε : EReal) {n : ℕ} (v : Fin n → EReal) : EReal := max (Ideal.sqrt (∑ k, v k * v k)) ε

/-- One quotient: the sum of products over the product of the two floored norms. -/
def cosOnce (ε : EReal) {n : ℕ} (p h : Fin n → EReal) : EReal :=
  Ideal.div (∑ k, p k * h k) (flooredNorm ε p * flooredNorm ε h)

/-- Each row normalised by its floored norm first, then the sum of products. -/
def cosNormalised (ε : EReal) {n : ℕ} (p h : Fin n → EReal) : EReal :=
  ∑ k, Ideal.div (p k) (flooredNorm ε p) * Ideal.div (h k) (flooredNorm ε h)

/-- The floored norm of a row of reals, with ε a positive real, is a positive real. -/
theorem flooredNorm_real {ε : ℝ} (hε : 0 < ε) {n : ℕ} (v : Fin n → ℝ) :
    ∃ a : ℝ, 0 < a ∧ flooredNorm (ε : EReal) (fun k => (v k : EReal)) = (a : EReal) := by
  refine ⟨max (Real.sqrt (∑ k, v k * v k)) ε, lt_max_of_lt_right hε, ?_⟩
  have hs : (∑ k, (v k : EReal) * (v k : EReal)) = ((∑ k, v k * v k : ℝ) : EReal) := by
    rw [coe_sum]; exact Finset.sum_congr rfl fun k _ => (EReal.coe_mul _ _).symm
  have h0 : ¬ (∑ k, v k * v k : ℝ) < 0 := not_lt.mpr (Finset.sum_nonneg fun k _ => mul_self_nonneg (v k))
  unfold flooredNorm
  rw [hs, Ideal.sqrt_coe, if_neg h0]
  exact (EReal.coe_strictMono.monotone.map_max).symm

/-- THE LAW. For rows of reals and a positive real ε the two arrangements are one extended real. -/
theorem cosNormalised_eq_cosOnce {ε : ℝ} (hε : 0 < ε) {n : ℕ} (p h : Fin n → ℝ) :
    cosNormalised (ε : EReal) (fun k => (p k : EReal)) (fun k => (h k : EReal))
      = cosOnce (ε : EReal) (fun k => (p k : EReal)) (fun k => (h k : EReal)) := by
  obtain ⟨a, ha, ea⟩ := flooredNorm_real hε p
  obtain ⟨b, hb, eb⟩ := flooredNorm_real hε h
  unfold cosNormalised cosOnce
  rw [ea, eb]
  have hab : a * b ≠ 0 := (mul_pos ha hb).ne'
  have hd : (∑ k, (p k : EReal) * (h k : EReal)) = ((∑ k, p k * h k : ℝ) : EReal) := by
    rw [coe_sum]; exact Finset.sum_congr rfl fun k _ => (EReal.coe_mul _ _).symm
  rw [hd, ← EReal.coe_mul a b, Ideal.div_coe hab, ← EReal.coe_mul]
  have hk : ∀ k : Fin n, Ideal.div (p k : EReal) (a : EReal) * Ideal.div (h k : EReal) (b : EReal)
      = ((p k * (1 / a) * (h k * (1 / b)) : ℝ) : EReal) := fun k => by
    rw [Ideal.div_coe ha.ne', Ideal.div_coe hb.ne', ← EReal.coe_mul, ← EReal.coe_mul, ← EReal.coe_mul]
  rw [Finset.sum_congr rfl fun k _ => hk k, ← coe_sum]
  congr 1
  rw [Finset.sum_mul]
  refine Finset.sum_congr rfl fun k _ => ?_
  field_simp

/-- The same law for rows of extended reals each of whose entries is a real. -/
theorem cosNormalised_eq_cosOnce_of_real {ε : EReal} (hε : ∃ e : ℝ, 0 < e ∧ ε = (e : EReal)) {n : ℕ} (p h : Fin n → EReal)
    (hp : ∀ k, ∃ r : ℝ, p k = (r : EReal)) (hh : ∀ k, ∃ r : ℝ, h k = (r : EReal)) :
    cosNormalised ε p h = cosOnce ε p h := by
  obtain ⟨e, he, rfl⟩ := hε
  choose p' hp' using hp
  choose h' hh' using hh
  obtain rfl : p = fun k => (p' k : EReal) := funext hp'
  obtain rfl : h = fun k => (h' k : EReal) := funext hh'
  exact cosNormalised_eq_cosOnce he p' h'

/-- The floor both programs spell, 1e-12 rounded to binary32, denotes a positive real. -/
theorem floor_pos_real : ∃ e : ℝ, 0 < e ∧ Ideal.ofBits .f32 0x2B8CBCCC#32 = (e : EReal) := by
  simp [Ideal.ofBits, Ideal.ieee, -EReal.coe_mul]

/-- THE RESULT, row by row: the cosine, in the single-quotient arrangement with the floor both programs spell, of row r
    of two arrays of 65536 rows and 1024 columns. -/
def cosRow (x0 x1 : (⟨2, ![65536, 1024]⟩ : Shape).Idx → EReal) (r : Fin 65536) : EReal :=
  cosOnce (Ideal.ofBits .f32 0x2B8CBCCC#32) (fun k : Fin 1024 => x0 (ix2 r k)) (fun k : Fin 1024 => x1 (ix2 r k))

/-- The result as an array of 65536 entries. -/
def cosArray (x0 x1 : (⟨2, ![65536, 1024]⟩ : Shape).Idx → EReal) : (⟨1, ![65536]⟩ : Shape).Idx → EReal :=
  fun i => cosRow x0 x1 (i 0)

end Cert.Cosine

end
-- ==== Proof.KernelBlock.lean ====
/-
  What one grid point of the kernel leaves in its output block, read at a row.

  A point loads a block of 2048 rows of each input (all 1024 columns), takes three lane sums per row — Σ_k p_k², Σ_k h_k²,
  Σ_k p_k·h_k —, floors the two square roots at ε and divides once. Read at row r of the block this is the single-quotient
  arrangement of the cosine of row r of the two loaded blocks.
-/
import proofs.«130003_j76785425318088_2_alg».proof.Proof.Gen.KernelIdeal.Value
import proofs.«130003_j76785425318088_2_alg».proof.Proof.CosineLaw
import Idealize.ShloMosaic.Lib.ValueIdx
import Idealize.ShloMosaic.PureOps.Ideal.Laws

noncomputable section

namespace Cert.Cosine

open Idealize.ShloMosaic Idealize.ShloMosaic.ValueIdx Cert.KernelIdeal Cert.KernelIdeal.Gen

/-- A sum along the lanes of a block of 2048 rows, read at row r: the sum over the 1024 columns of that row. -/
theorem laneSum_apply (src : FVec Ideal S2048x1024 .f32) (hφ : FKind.Formats .f32)
    (hacc : (0x00000000#32 : BitVec 32) = 0x00000000#32) (r : Fin 2048) :
    multiReduction .add [1] S2048 src 0x00000000#32 reduces_S2048x1024_S2048 hφ hacc (ix1 r)
      = ∑ k : Fin 1024, src (ix2 r k) := by
  refine (Ideal.multiReduction_add_single src _ reduces_S2048x1024_S2048 hφ hacc (ix1 r)).trans ?_
  refine Finset.sum_congr rfl fun k _ => congrArg src ?_
  funext a; apply Fin.ext
  match a with
  | ⟨0, _⟩ => rfl
  | ⟨1, _⟩ => rfl

/-- Row r of the block a point leaves: the sum of products of row r of the two loaded blocks over the product of
    their floored norms. -/
theorem block_row (P0 P1 : Vec Ideal S2048x1024 .f32) (r : Fin 2048) :
    Cert.KernelIdeal.Value.E2 (F := Ideal) P0 P1 (ix1 r)
      = cosOnce (Ideal.ofBits .f32 0x2B8CBCCC#32) (fun k => P0 (ix2 r k)) (fun k => P1 (ix2 r k)) := by
  have e0 : Cert.KernelIdeal.Value.ix2_0 (ix1 r) = ix1 r := funext fun a => by match a with | ⟨0, _⟩ => rfl
  have e1 : Cert.KernelIdeal.Value.ix2_1 (ix1 r) = ix1 r := funext fun a => by match a with | ⟨0, _⟩ => rfl
  have e2 : Cert.KernelIdeal.Value.ix2_2 (ix1 r) = ix1 r := funext fun a => by match a with | ⟨0, _⟩ => rfl
  unfold Cert.KernelIdeal.Value.E2
  rw [e0, e1, e2, laneSum_apply, laneSum_apply, laneSum_apply]
  rfl

end Cert.Cosine

end
-- ==== Proof.KernelArray.lean ====
/-
  From the blocks the grid points write back to the whole result array of the kernel.

  The grid has 32 points; point t stages rows 2048·t … 2048·t + 2047 of each input (all columns) and writes back entries
  2048·t … 2048·t + 2047 of the result. So entry R of the result is written by point R / 2048 from row R of the two
  inputs, the 32 blocks cover the result, and the result array is the row-by-row cosine of the two argument arrays.
-/
import proofs.«130003_j76785425318088_2_alg».proof.Proof.KernelBlock
import Idealize.ShloMosaic.Lib.Pipeline.Value

noncomputable section

namespace Cert.Cosine.Kernel

open Cert.KernelIdeal Cert.KernelIdeal.Gen Idealize.ShloMosaic Idealize.ShloMosaic.TcCoe Idealize.SL.Sem
open Idealize.ShloMosaic.ValueIdx Cert.Cosine
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What a point leaves in its output block, at row r, from the two loaded blocks. -/
theorem out_row (x0 x1 : Vec Ideal S2048x1024 .f32) (r : Fin 2048) :
    out0_2 x0 x1 (ix1 r)
      = cosOnce (Ideal.ofBits .f32 0x2B8CBCCC#32) (fun k => x0 (ix2 r k)) (fun k => x1 (ix2 r k)) := by
  unfold out0_2
  rw [Cert.KernelIdeal.Value.canon2_eq]
  simp only [View.ld_unit_zero (S := S2048x1024) zero_offsets]
  exact block_row x0 x1 r

/-- The same at any index of the block. -/
theorem out_at (x0 x1 : Vec Ideal S2048x1024 .f32) (y : S2048.Idx) :
    out0_2 x0 x1 y
      = cosOnce (Ideal.ofBits .f32 0x2B8CBCCC#32) (fun k => x0 (ix2 (y 0 : Fin 2048) k)) (fun k => x1 (ix2 (y 0 : Fin 2048) k)) := by
  obtain ⟨r, rfl⟩ : ∃ r : Fin 2048, y = ix1 r := ⟨y 0, eq_ix1 y⟩
  exact out_row x0 x1 r

/-- The printed index maps over the 32 points: both input windows sit at block row t, block column 0, and the output
    window at block t. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- Row r of the first input's block at point t is row 2048·t + r of the first argument. -/
theorem iblk0_row (c : Dev nD) (t : Fin cfg0.N) (r : Fin 2048) (R : Fin 65536) (hR : R.val = t.val * 2048 + r.val) :
    (fun k : Fin 1024 => (iblk m c 0 t : Vec Ideal S2048x1024 .f32) (ix2 r k))
      = fun k : Fin 1024 => (V m c main_arg0 : S65536x1024.Idx → EReal) (ix2 R k) := by
  obtain ⟨h0, h1, -, -, -⟩ := index_maps t
  funext k
  unfold iblk
  rw [View.read_apply]
  show V m c main_arg0 _ = V m c main_arg0 _
  refine congrArg (V m c main_arg0) ?_
  funext a
  apply Fin.ext
  match a with
  | ⟨0, _⟩ => show win0_0.index t (0 : Fin 2) * 2048 + 1 * r.val = R.val; rw [h0, hR]; omega
  | ⟨1, _⟩ => show win0_0.index t (1 : Fin 2) * 1024 + 1 * k.val = k.val; rw [h1]; omega

/-- Row r of the second input's block at point t is row 2048·t + r of the second argument. -/
theorem iblk1_row (c : Dev nD) (t : Fin cfg0.N) (r : Fin 2048) (R : Fin 65536) (hR : R.val = t.val * 2048 + r.val) :
    (fun k : Fin 1024 => (iblk m c 1 t : Vec Ideal S2048x1024 .f32) (ix2 r k))
      = fun k : Fin 1024 => (V m c main_arg1 : S65536x1024.Idx → EReal) (ix2 R k) := by
  obtain ⟨-, -, h0, h1, -⟩ := index_maps t
  funext k
  unfold iblk
  rw [View.read_apply]
  show V m c main_arg1 _ = V m c main_arg1 _
  refine congrArg (V m c main_arg1) ?_
  funext a
  apply Fin.ext
  match a with
  | ⟨0, _⟩ => show win0_1.index t (0 : Fin 2) * 2048 + 1 * r.val = R.val; rw [h0, hR]; omega
  | ⟨1, _⟩ => show win0_1.index t (1 : Fin 2) * 1024 + 1 * k.val = k.val; rw [h1]; omega

/-- WHAT POINT t WRITES BACK is block t of the row-by-row cosine of the two arrays as the region finds them. -/
theorem flushed_eq (c : Dev nD) (t : Fin cfg0.N) :
    (dats m 0 c).flushed 2 t
      = ((cfg0.win 2).blk t).view.read (Elt Ideal) (cosArray (V m c main_arg0) (V m c main_arg1)) := by
  rw [Cert.KernelIdeal.Value.flushed2]
  obtain ⟨-, -, -, -, h2⟩ := index_maps t
  funext j
  refine (out_at (iblk m c 0 t) (iblk m c 1 t) j).trans ?_
  have hN : cfg0.N = 32 := N_0
  have hj : (j 0).val < 2048 := (j 0).isLt
  have ht : t.val < 32 := hN ▸ t.isLt
  have hR : (⟨t.val * 2048 + (j 0).val, by omega⟩ : Fin 65536).val = t.val * 2048 + (j 0).val := rfl
  have hemb : (((cfg0.win 2).blk t).view.emb j (0 : Fin 1)) = (⟨t.val * 2048 + (j 0).val, by omega⟩ : Fin 65536) := by
    apply Fin.ext
    show win0_2.index t (0 : Fin 1) * 2048 + 1 * (j 0).val = t.val * 2048 + (j 0).val
    rw [h2]; omega
  show _ = cosRow (V m c main_arg0) (V m c main_arg1) (((cfg0.win 2).blk t).view.emb j (0 : Fin 1))
  rw [hemb]
  unfold cosRow
  exact congrArg₂ (cosOnce (Ideal.ofBits .f32 0x2B8CBCCC#32)) (iblk0_row m c t (j 0) _ hR) (iblk1_row m c t (j 0) _ hR)

/-- An entry of the result is in point t's block iff it lies in that block's range. -/
theorem mem_blk (t : Fin cfg0.N) (i : S65536.Idx) :
    i ∈ ((cfg0.win 2).blk t).view.set ↔ ∀ a : Fin 1, win0_2.index t a * S2048.size a ≤ (i a).val ∧ (i a).val < win0_2.index t a * S2048.size a + S2048.size a := by
  show i ∈ ((View.whole main_v0).slice (win0_2.rect t)).set ↔ _
  rw [View.set_slice_whole, Rect.mem_set_unit]
  exact Iff.rfl

/-- Every entry of the result lies in the block of some point that writes back: entry R in the block of point R / 2048. -/
theorem cover (i : S65536.Idx) : ∃ t : Fin cfg0.N, (cfg0.win 2).flush t = true ∧ i ∈ ((cfg0.win 2).blk t).view.set := by
  have hi : (i 0).val < 65536 := (i 0).isLt
  have hN : cfg0.N = 32 := N_0
  refine ⟨⟨(i 0).val / 2048, by rw [hN]; omega⟩, flush0_2 _, ?_⟩
  rw [mem_blk]
  intro a
  obtain ⟨-, -, -, -, h2⟩ := index_maps ⟨(i 0).val / 2048, by rw [hN]; omega⟩
  match a with
  | ⟨0, _⟩ =>
    show win0_2.index ⟨(i 0).val / 2048, _⟩ (0 : Fin 1) * 2048 ≤ (i 0).val ∧ (i 0).val < win0_2.index ⟨(i 0).val / 2048, _⟩ (0 : Fin 1) * 2048 + 2048
    rw [h2]
    show (i 0).val / 2048 * 2048 ≤ (i 0).val ∧ (i 0).val < (i 0).val / 2048 * 2048 + 2048
    omega

/-- THE RESULT ARRAY after the run: the row-by-row cosine of the two argument arrays. -/
theorem final (c : Dev nD) :
    (dats m 0 c).arrAt 2 cfg0.N = cosArray (m ((c : Thread nD τ).loc main_arg0)) (m ((c : Thread nD τ).loc main_arg1)) :=
  (dats m 0 c).arrAt_eq_of_cover 2 (cosArray (V m c main_arg0) (V m c main_arg1)) (fun t _ => flushed_eq m c t) cover

/-- The kernel's run, read: the result at the row-by-row cosine of the arguments, the arguments unchanged. -/
theorem run : θ_run defs (onTc (τ := τ) (main (F := Ideal))) ⟨m, fun _ => 0, ρ⟩ fun r => ∀ c : Dev nD,
      r.2.mem ((c : Thread nD τ).loc main_v0) = cosArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Cosine.Kernel

end
-- ==== Proof.RefValue.lean ====
/-
  The reference's result, read at a row.

  The reference normalises each input row by row — a row sum of squares kept as a column, its square root, the floor ε,
  the column spread back over the 1024 columns, one division per entry — multiplies the two normalised arrays entry by
  entry and sums each row. Read at row r this is the normalise-then-sum arrangement of the cosine of row r of the
  arguments. When every entry of both arguments is a real number it equals the single-quotient arrangement.
-/
import proofs.«130003_j76785425318088_2_alg».proof.Proof.Gen.ReferenceIdeal.Read
import proofs.«130003_j76785425318088_2_alg».proof.Proof.CosineLaw
import Idealize.ShloMosaic.Lib.ValueIdx
import Idealize.ShloMosaic.PureOps.Ideal.Laws

noncomputable section

namespace Cert.Cosine.Reference

open Idealize.ShloMosaic Idealize.ShloMosaic.ValueIdx Cert.ReferenceIdeal Cert.ReferenceIdeal.Gen Cert.ReferenceIdeal.Read
open Cert.Cosine

/-- The last row sum at row r runs over the entries (r, k). -/
theorem idx_sum (r : Fin 65536) (k : Fin 1024) : idx_main_v17 (ix1 r) k = ix2 r k :=
  funext fun a => Fin.ext (by match a with | ⟨0, _⟩ => rfl | ⟨1, _⟩ => rfl)

/-- The first argument's norm read at entry (r, k) sums the squares of the entries (r, k'): the spread-back column, the
    kept column and the row sum composed. -/
theorem idx_norm0 (r : Fin 65536) (k k' : Fin 1024) : idx_main_v1 (idx_main_v2 (idx_main_v6 (ix2 r k))) k' = ix2 r k' :=
  funext fun a => Fin.ext (by match a with | ⟨0, _⟩ => rfl | ⟨1, _⟩ => rfl)

/-- The same for the second argument. -/
theorem idx_norm1 (r : Fin 65536) (k k' : Fin 1024) : idx_main_v9 (idx_main_v10 (idx_main_v14 (ix2 r k))) k' = ix2 r k' :=
  funext fun a => Fin.ext (by match a with | ⟨0, _⟩ => rfl | ⟨1, _⟩ => rfl)

/-- The divisor of the first argument's entry (r, k) is the floored norm of its row r. -/
theorem norm0_at (x0 : S65536x1024.Idx → EReal) (r : Fin 65536) (k : Fin 1024) :
    val_main_v6 (F := Ideal) x0 (ix2 r k) = flooredNorm (Ideal.ofBits .f32 0x2B8CBCCC#32) (fun k' : Fin 1024 => x0 (ix2 r k')) := by
  rw [val_main_v6_apply, val_main_v5_apply, val_main_v3_apply, val_main_v2_apply, val_main_v1_apply, val_main_v4_apply,
    val_main_cst_0_apply, val_main_cst_apply]
  simp only [idx_norm0, val_main_v0_apply]
  show max (Ideal.sqrt (Ideal.ofBits .f32 0x00000000#32 + _)) _ = _
  rw [Ideal.ofBits_zero_f32, zero_add]
  rfl

/-- The divisor of the second argument's entry (r, k) is the floored norm of its row r. -/
theorem norm1_at (x1 : S65536x1024.Idx → EReal) (r : Fin 65536) (k : Fin 1024) :
    val_main_v14 (F := Ideal) x1 (ix2 r k) = flooredNorm (Ideal.ofBits .f32 0x2B8CBCCC#32) (fun k' : Fin 1024 => x1 (ix2 r k')) := by
  rw [val_main_v14_apply, val_main_v13_apply, val_main_v11_apply, val_main_v10_apply, val_main_v9_apply, val_main_v12_apply,
    val_main_cst_2_apply, val_main_cst_1_apply]
  simp only [idx_norm1, val_main_v8_apply]
  show max (Ideal.sqrt (Ideal.ofBits .f32 0x00000000#32 + _)) _ = _
  rw [Ideal.ofBits_zero_f32, zero_add]
  rfl

/-- Entry r of the reference's result: the normalise-then-sum arrangement of the cosine of row r of the arguments. -/
theorem ref_row (x0 x1 : S65536x1024.Idx → EReal) (r : Fin 65536) :
    val_main_v17 (F := Ideal) x0 x1 (ix1 r)
      = cosNormalised (Ideal.ofBits .f32 0x2B8CBCCC#32) (fun k : Fin 1024 => x0 (ix2 r k)) (fun k : Fin 1024 => x1 (ix2 r k)) := by
  rw [val_main_v17_apply, val_main_cst_3_apply]
  show Ideal.ofBits .f32 0x00000000#32 + _ = _
  rw [Ideal.ofBits_zero_f32, zero_add]
  unfold cosNormalised
  refine Finset.sum_congr rfl fun k _ => ?_
  rw [idx_sum, val_main_v16_apply, val_main_v7_apply, val_main_v15_apply, norm0_at, norm1_at]
  rfl

/-- THE REFERENCE IS THE ROW-BY-ROW COSINE when every entry of both arguments is a real number. -/
theorem ref_eq (x0 x1 : S65536x1024.Idx → EReal) (h0 : ∀ i, ∃ r : ℝ, x0 i = (r : EReal)) (h1 : ∀ i, ∃ r : ℝ, x1 i = (r : EReal)) :
    val_main_v17 (F := Ideal) x0 x1 = cosArray x0 x1 := by
  funext i
  obtain ⟨r, rfl⟩ : ∃ r : Fin 65536, i = ix1 r := ⟨i 0, eq_ix1 i⟩
  rw [ref_row]
  exact cosNormalised_eq_cosOnce_of_real floor_pos_real _ _ (fun k => h0 _) (fun k => h1 _)

end Cert.Cosine.Reference

end
-- ==== Proof.FiniteInputs.lean ====
/-
  What the precondition says: every entry of both argument arrays is a real number.

  The precondition is the conjunction of two "all entries satisfy |x| < +∞". On the extended reals |x| = max x (−x), which
  is +∞ exactly at the two infinities, so an entry that passes the comparison is a real number.
-/
import proofs.«130003_j76785425318088_2_alg».proof.Proof.Gen.Pre_finite_inputs
import Idealize.ShloMosaic.Lib.ReduceAll
import Idealize.ShloMosaic.Lib.ValueIdx
import Idealize.ShloMosaic.PureOps.Ideal.Laws

noncomputable section

namespace Cert.Cosine.Finite

open Idealize.ShloMosaic Idealize.ShloMosaic.ValueIdx Cert.Pre_finite_inputs

/-- The scalar shape has one index. -/
instance : Subsingleton S_.Idx := ⟨fun a b => funext fun d => d.elim0⟩

/-- The binary32 pattern of +∞ denotes the top of the extended reals. -/
theorem inf_pattern : Ideal.ofBits .f32 0x7F800000#32 = ⊤ := by
  simp [Ideal.ofBits, Ideal.ieee]

/-- An extended real whose absolute value is strictly below +∞ is a real number. -/
theorem real_of_abs_lt (x : EReal) (h : Ideal.cmp .olt (max x (-x)) (Ideal.ofBits .f32 0x7F800000#32) = 1#1) :
    ∃ r : ℝ, x = (r : EReal) := by
  rw [inf_pattern] at h
  induction x using EReal.rec with
  | bot => simp [Ideal.cmp] at h
  | top => simp [Ideal.cmp] at h
  | coe r => exact ⟨r, rfl⟩

/-- Under the precondition both argument arrays hold real numbers only. -/
theorem real_of_pre (a0 a1 : FVec Ideal S65536x1024 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h1 := congrFun h ix0
  dsimp only [Cert.Pre_finite_inputs.fn] at h1
  obtain ⟨ha, hb⟩ := IntOp.andi_eq_one.mp h1
  have A := fun i => Host.reduce_andi_all _ _ _ _ _ ha i
  have B := fun i => Host.reduce_andi_all _ _ _ _ _ hb i
  exact ⟨fun i => real_of_abs_lt (a0 i) (A i), fun i => real_of_abs_lt (a1 i) (B i)⟩

end Cert.Cosine.Finite

end
-- ==== Proof.lean ====
/-
  Cosine similarity of corresponding rows of two arrays of 65536 rows and 1024 columns, each row norm floored at
  ε = 1e-12 (as binary32), in two arrangements that agree on the extended reals when every input entry is finite.

  The kernel, on a grid of 32 blocks of 2048 rows, computes per row r
      (Σ_k p_rk · h_rk) / (max (√Σ_k p_rk²) ε · max (√Σ_k h_rk²) ε);
  the reference normalises first and sums after,
      Σ_k (p_rk / max (√Σ_k p_rk²) ε) · (h_rk / max (√Σ_k h_rk²) ε).
  With real entries each floored norm is a positive real, dividing by it is multiplying by its reciprocal, and the
  constant reciprocals leave the finite sum (Proof/CosineLaw.lean); at an infinite entry that step fails, so the
  precondition is used (Proof/FiniteInputs.lean reads it as "every entry is a real number").

  Proof/KernelBlock.lean reads one grid point's output block at a row; Proof/KernelArray.lean joins the 32 blocks into
  the kernel's result array; Proof/RefValue.lean reads the reference's result at a row. Here the five claims are assembled:
  the three frames, the (empty) list of idealization rewrites, and the equality of the two results.
-/
import proofs.«130003_j76785425318088_2_alg».proof.Defs
import proofs.«130003_j76785425318088_2_alg».proof.Proof.Gen.Kernel
import proofs.«130003_j76785425318088_2_alg».proof.Proof.Gen.Kernel.Skeleton
import proofs.«130003_j76785425318088_2_alg».proof.Proof.Gen.Kernel.Launch
import proofs.«130003_j76785425318088_2_alg».proof.Proof.Gen.Kernel.Points
import proofs.«130003_j76785425318088_2_alg».proof.Proof.Gen.Kernel.Frame
import proofs.«130003_j76785425318088_2_alg».proof.Proof.Gen.KernelIdeal
import proofs.«130003_j76785425318088_2_alg».proof.Proof.Gen.KernelIdeal.Skeleton
import proofs.«130003_j76785425318088_2_alg».proof.Proof.Gen.KernelIdeal.Launch
import proofs.«130003_j76785425318088_2_alg».proof.Proof.Gen.KernelIdeal.Points
import proofs.«130003_j76785425318088_2_alg».proof.Proof.Gen.KernelIdeal.Frame
import proofs.«130003_j76785425318088_2_alg».proof.Proof.Gen.KernelIdeal.Value
import proofs.«130003_j76785425318088_2_alg».proof.Proof.Gen.ReferenceIdeal
import proofs.«130003_j76785425318088_2_alg».proof.Proof.Gen.ReferenceIdeal.Run
import proofs.«130003_j76785425318088_2_alg».proof.Proof.Gen.ReferenceIdeal.Read
import proofs.«130003_j76785425318088_2_alg».proof.Proof.Gen.Pre_finite_inputs
import proofs.«130003_j76785425318088_2_alg».proof.Proof.KernelArray
import proofs.«130003_j76785425318088_2_alg».proof.Proof.RefValue
import proofs.«130003_j76785425318088_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals: nothing to show. -/
theorem preserves : Cert.preserves_Kernel_KernelIdeal := trivial

/-- Both programs end with the row-by-row cosine of the arguments: the kernel by its 32 blocks, the reference because
    under the precondition every entry is a real number, where normalise-then-sum equals the single quotient. -/
theorem algebraic : Cert.algebraic_KernelIdeal_ReferenceIdeal := by
  intro m ρ m' ρ' hpre hagree
  refine ⟨fun c => Cert.Cosine.cosArray (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Cosine.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨h0, h1⟩ := Cert.Cosine.Finite.real_of_pre _ _ (hpre c)
  exact (Cert.ReferenceIdeal.Read.val_main_v17_eq _ _).trans (Cert.Cosine.Reference.ref_eq _ _ h0 h1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
